-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x1 : Shape := ⟨2, ![1600000, 1]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : FVec F S50000x64 .f32) (main_arg2 : FVec F S1600000x1 .f32) (main_arg3 : FVec F S64x64 .f32) (main_arg4 : FVec F S64 .f32) (main_arg5 : FVec F S64x64 .f32) (main_arg6 : FVec F S64 .f32) (main_arg7 : IVec S1600000 32) (main_arg8 : IVec S1600000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1600000x1 .f32 := Host.absf main_arg2
  let main_cst_2 : FVec F S_ .f32 := constant S_ .f32 0x7F800000#32
  let main_v10 : FVec F S1600000x1 .f32 := broadcastInDim S1600000x1 ![] bcast_S_S1600000x1 main_cst_2
  let main_v11 : IVec S1600000x1 1 := cmpf .olt main_v9 main_v10
  let main_c_3 : IVec S_ 1 := constantI S_ 1 1#1
  let main_v12 : IVec S_ 1 := (fun x v => Host.reduce IntOp.andi x v reducesTo_S1600000x1_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S50000x64 : Shape := ⟨2, ![50000, 64]⟩
abbrev S1600000x1 : Shape := ⟨2, ![1600000, 1]⟩
abbrev S64x64 : Shape := ⟨2, ![64, 64]⟩
abbrev S64 : Shape := ⟨1, ![64]⟩
abbrev S1600000 : Shape := ⟨1, ![1600000]⟩
abbrev S100000x64 : Shape := ⟨2, ![100000, 64]⟩
abbrev S_ : Shape := ⟨0, ![]⟩
abbrev S1600000x64 : Shape := ⟨2, ![1600000, 64]⟩
abbrev S800000x128 : Shape := ⟨2, ![800000, 128]⟩
abbrev S800000x2 : Shape := ⟨2, ![800000, 2]⟩
abbrev S128x128 : Shape := ⟨2, ![128, 128]⟩
abbrev S1 : Shape := ⟨1, ![1]⟩
abbrev S2 : Shape := ⟨1, ![2]⟩
abbrev S128 : Shape := ⟨1, ![128]⟩
abbrev S6400x128 : Shape := ⟨2, ![6400, 128]⟩
abbrev S6400x2 : Shape := ⟨2, ![6400, 2]⟩
abbrev S1x128 : Shape := ⟨2, ![1, 128]⟩
abbrev S6400x1 : Shape := ⟨2, ![6400, 1]⟩

abbrev nBuf : Space → Nat
  | .hbm => 77
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S1600000x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S100000x64, .f32⟩
  | .hbm, ⟨10, _⟩ => ⟨S100000x64, .bf16⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .bf16⟩
  | .hbm, ⟨29, _⟩ => ⟨S800000x128, .bf16⟩
  | .hbm, ⟨30, _⟩ => ⟨S800000x128, .bf16⟩
  | .hbm, ⟨31, _⟩ => ⟨S800000x2, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S128x128, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S128x128, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S128x128, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S128x128, .f32⟩
  | .hbm, ⟨62, _⟩ => ⟨S128, .f32⟩
  | .hbm, ⟨63, _⟩ => ⟨S128, .f32⟩
  | .hbm, ⟨64, _⟩ => ⟨S800000x128, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .i1⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S6400x2, .f32⟩
  | .local _ .vmem, ⟨5, _⟩ => ⟨S6400x2, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S6400x128, .f32⟩
  | .local _ .vmem, ⟨11, _⟩ => ⟨S6400x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_10 : Ref sig .tc := ⟨.hbm, 56, rfl⟩
abbrev main_v35 : Ref sig .tc := ⟨.hbm, 57, rfl⟩
abbrev main_c_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_cst_14 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S50000x64_S50000x64_S100000x64_d0 : Shape.Concatenates [S50000x64, S50000x64] S100000x64 0
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000x64_S800000x128 : S1600000x64.ShapeCasts S800000x128
  shapeCasts_S1600000x1_S800000x2 : S1600000x1.ShapeCasts S800000x2
  transposes_S64x64_S64x64_1_0 : S64x64.Transposes [1, 0] S64x64
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  concatenates_S64_S64_S128_d0 : Shape.Concatenates [S64, S64] S128 0
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S6400x128 : S1x128.Broadcasts S6400x128
  inb_S6400x2_S6400x2_0_0 : ∀ a, (![0, 0] : Fin 2 → Nat) a + S6400x2.size a ≤ S6400x2.size a
  h_S6400x2 : 0 < S6400x2.numel
  shapeCasts_S6400x2_S6400x2 : S6400x2.ShapeCasts S6400x2
  iota_S6400x128_d1_w32 : S6400x128.Iotas .tc 32 [1]
  slices_S6400x2_o0_0_S6400x1 : S6400x2.Slices ![0, 0] S6400x1
  shapeCasts_S6400x1_S6400x1 : S6400x1.ShapeCasts S6400x1
  broadcasts_S6400x1_S6400x128 : S6400x1.Broadcasts S6400x128
  slices_S6400x2_o0_1_S6400x1 : S6400x2.Slices ![0, 1] S6400x1
  shapeCasts_S800000x128_S1600000x64 : S800000x128.ShapeCasts S1600000x64
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S128x128_S2_S64x64_01_n_01_0_wf : ScatterDims.WF S128x128 S2 S64x64 [0, 1] [] [0, 1] 0
  dot_S6400x128_S128x128_S6400x128_1_0_0_1_n_n_wf : DotDims.WF S6400x128 S128x128 S6400x128 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .bf16 = 32 ∨ (Rect.block (s := S800000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x2.size a ≤ S800000x2.size a
  hwx0_2 : ∀ i : grid0.Coords, EltTy.bits .f32 = 32 ∨ (Rect.block (s := S800000x2) S6400x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x128.size a ≤ S800000x128.size a
  hwx0_7 : ∀ i : grid0.Coords, EltTy.bits .f32 = 32 ∨ (Rect.block (s := S800000x128) S6400x128.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S128x128_S2_S64x64_01_n_01_0 : ScatterDims S128x128 S2 S64x64 where
  updateWindowDims := [0, 1]
  insertedWindowDims := []
  scatterDimsToOperandDims := [0, 1]
  indexVectorDim := 0
  wf := scatter_S128x128_S2_S64x64_01_n_01_0_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v16) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S6400x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S6400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S1600000x1 : Shape := ⟨2, ![1600000, 1]⟩
abbrev S64x64 : Shape := ⟨2, ![64, 64]⟩
abbrev S64 : Shape := ⟨1, ![64]⟩
abbrev S1600000 : Shape := ⟨1, ![1600000]⟩
abbrev S100000x64 : Shape := ⟨2, ![100000, 64]⟩
abbrev S_ : Shape := ⟨0, ![]⟩
abbrev S1600000x64 : Shape := ⟨2, ![1600000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S1600000x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S100000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x64, .f32⟩
  | .hbm, ⟨29, _⟩ => ⟨S1x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S1600000x64, .f32⟩
  | .hbm, ⟨34, _⟩ => ⟨S1600000x64, .f32⟩
  | .hbm, ⟨35, _⟩ => ⟨S1x64, .f32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .i1⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S100000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  concatenates_S50000x64_S50000x64_S100000x64_d0 : Shape.Concatenates [S50000x64, S50000x64] S100000x64 0
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S1600000x64_S64x64_S1600000x64_1_1_0_0_n_n_wf : DotDims.WF S1600000x64 S64x64 S1600000x64 [1] [1] [0] [0] [] []
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_1_0_0_n_n : DotDims S1600000x64 S64x64 S1600000x64 where
  lhsContracting := [1]
  rhsContracting := [1]
  lhsNonContracting := [0]
  rhsNonContracting := [0]
  lhsBatch := []
  rhsBatch := []
  wf := dot_S1600000x64_S64x64_S1600000x64_1_1_0_0_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibOverwriteScatter.lean ====
import Idealize.ShloMosaic.PureOps.ShapeOps
import Idealize.ShloMosaic.Lib.ValueIdx

/-! # An overwriting host scatter read at one element

The host's scatter is a left fold over the update indices: each step whose landing index lies inside the operand
replaces that element by the scatter's body applied to the old element and the update. When the body returns the
update, an element on which no update lands keeps the operand's value, and an element on which updates land holds
their value, provided they all carry one value (in particular when exactly one lands). -/

namespace Cert.OverwriteScatter

open Idealize.ShloMosaic

section Fold
variable {ι κ α : Type} [DecidableEq κ]

/-- A run of overwriting steps leaves an element none of them lands on as it was. The step function is any one
    that overwrites the landing element with the step's value and changes nothing else. -/
theorem foldl_overwrite_miss (ρ : ι → Option κ) (val : ι → α) (g : (κ → α) → ι → κ → α)
    (hs : ∀ r n i k, ρ n = some i → g r n k = if k = i then val n else r k)
    (hn : ∀ r n k, ρ n = none → g r n k = r k)
    (l : List ι) (x : κ → α) (i' : κ) (h : ∀ n ∈ l, ρ n ≠ some i') :
    l.foldl g x i' = x i' := by
  induction l generalizing x with
  | nil => rfl
  | cons a t ih =>
    rw [List.foldl_cons, ih _ (fun n hn => h n (List.mem_cons_of_mem _ hn))]
    have ha := h a (List.mem_cons_self ..)
    cases hρ : ρ a with
    | none => exact hn _ _ _ hρ
    | some i =>
      rw [hs _ _ _ _ hρ]
      exact if_neg (fun e => ha (by rw [hρ, e]))

/-- A run of overwriting steps, some of which land on an element, all of those with one value, leaves that value there. -/
theorem foldl_overwrite_hit (ρ : ι → Option κ) (val : ι → α) (g : (κ → α) → ι → κ → α)
    (hs : ∀ r n i k, ρ n = some i → g r n k = if k = i then val n else r k)
    (hn : ∀ r n k, ρ n = none → g r n k = r k)
    (l : List ι) (x : κ → α) (i' : κ) (v : α)
    (hex : ∃ n ∈ l, ρ n = some i') (hv : ∀ n ∈ l, ρ n = some i' → val n = v) :
    l.foldl g x i' = v := by
  induction l generalizing x with
  | nil => obtain ⟨n, hn, _⟩ := hex; cases hn
  | cons a t ih =>
    rw [List.foldl_cons]
    by_cases ht : ∃ n ∈ t, ρ n = some i'
    · exact ih _ ht (fun n hn => hv n (List.mem_cons_of_mem _ hn))
    · rw [foldl_overwrite_miss ρ val g hs hn t _ i' (fun n hn e => ht ⟨n, hn, e⟩)]
      obtain ⟨n, hn', hρ⟩ := hex
      rcases List.mem_cons.1 hn' with rfl | hn''
      · rw [hs _ _ _ _ hρ, if_pos rfl]
        exact hv n (List.mem_cons_self ..) hρ
      · exact absurd ⟨n, hn'', hρ⟩ ht

end Fold

variable {s si u : Shape} {w : Nat} {α : Type}

/-- An overwriting scatter leaves an element no update lands on as the operand has it. -/
theorem scatter_set_miss (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  unfold Host.scatter
  refine foldl_overwrite_miss (fun n => d.resultIdx? (u.rowMajor.symm n) idx) (fun n => upd (u.rowMajor.symm n)) _ ?_ ?_ _ x i'
    (fun n _ => h _)
  · intro r n i k hρ
    simp only [hρ]
  · intro r n k hρ
    simp only [hρ]

/-- An overwriting scatter holds, at an element that updates land on, the update's value there, when all the
    updates landing on it carry one value. -/
theorem scatter_set_hit (d : ScatterDims s si u) (x : s.Idx → α) (idx : IVec si w) (upd : u.Idx → α) (i' : s.Idx) (v : α)
    (j₀ : u.Idx) (h₀ : d.resultIdx? j₀ idx = some i')
    (hv : ∀ j : u.Idx, d.resultIdx? j idx = some i' → upd j = v) :
    Host.scatter d (fun _ b => b) x idx upd i' = v := by
  unfold Host.scatter
  refine foldl_overwrite_hit (fun n => d.resultIdx? (u.rowMajor.symm n) idx) (fun n => upd (u.rowMajor.symm n)) _ ?_ ?_ _ x i' v
    ⟨u.rowMajor j₀, List.mem_finRange _, by show d.resultIdx? (u.rowMajor.symm (u.rowMajor j₀)) idx = some i'; rw [Equiv.symm_apply_apply]; exact h₀⟩
    (fun n _ e => hv _ e)
  · intro r n i k hρ
    simp only [hρ]
  · intro r n k hρ
    simp only [hρ]

end Cert.OverwriteScatter
-- ==== Proof.BlockDiag.lean ====
import proofs.«111251_j75857712382545_2_alg».proof.Proof.Gen.KernelIdeal
import proofs.«111251_j75857712382545_2_alg».proof.Proof.LibOverwriteScatter
import Idealize.ShloMosaic.Lib.Pipeline.Value
import Idealize.ShloMosaic.Lib.ValueLayout

/-! # The block-diagonal 128×128 weight

The host builds each packed weight by writing one 64×64 matrix `W` twice into a 128×128 array `z`: once with its
corner at (0, 0) and once at (64, 64). Read at an index: on the two diagonal blocks the array holds `W` at the
index taken modulo 64, and off them it still holds `z`. -/

noncomputable section
namespace Cert.BlockDiag
open Idealize.ShloMosaic Idealize.ShloMosaic.ValueIdx Cert.KernelIdeal Cert.KernelIdeal.Gen

local notation "sd" => scatter_S128x128_S2_S64x64_01_n_01_0

/-- Component `c` of the start index is read at position `c` of the index vector. -/
theorem siIdx_eq (j : S64x64.Idx) (c : Fin 2) : ScatterDims.siIdx sd j c = ix1 c := by
  funext b
  match b with
  | ⟨0, _⟩ => rfl

theorem start0 (j : S64x64.Idx) (idx : IVec S2 32) : ScatterDims.start sd j idx (0 : Fin 2) = (idx (ix1 (0 : Fin 2))).toInt := by
  unfold ScatterDims.start
  rw [dif_pos (by decide)]
  exact congrArg (fun k => (idx k).toInt) (siIdx_eq j _)

theorem start1 (j : S64x64.Idx) (idx : IVec S2 32) : ScatterDims.start sd j idx (1 : Fin 2) = (idx (ix1 (1 : Fin 2))).toInt := by
  unfold ScatterDims.start
  rw [dif_pos (by decide)]
  exact congrArg (fun k => (idx k).toInt) (siIdx_eq j _)

theorem window0 (j : S64x64.Idx) : ScatterDims.window sd j (0 : Fin 2) = (j 0).val := by
  unfold ScatterDims.window
  rw [dif_pos (by decide)]
  rfl

theorem window1 (j : S64x64.Idx) : ScatterDims.window sd j (1 : Fin 2) = (j 1).val := by
  unfold ScatterDims.window
  rw [dif_pos (by decide)]
  rfl

/-- Where element `j` of the 64×64 update lands when both start components are `o`: its row and column moved by `o`. -/
theorem resultIdx_eq (j : S64x64.Idx) (idx : IVec S2 32) (o : Nat) (ho : o + 64 ≤ 128)
    (h0 : (idx (ix1 (0 : Fin 2))).toInt = (o : Int)) (h1 : (idx (ix1 (1 : Fin 2))).toInt = (o : Int)) :
    ScatterDims.resultIdx? sd j idx
      = some (ix2 (⟨o + (j 0).val, by have hj : (j 0).val < 64 := (j 0).isLt; omega⟩ : Fin 128) (⟨o + (j 1).val, by have hj : (j 1).val < 64 := (j 1).isLt; omega⟩ : Fin 128)) := by
  unfold ScatterDims.resultIdx?
  have hb : ∀ a : Fin 2, 0 ≤ ScatterDims.start sd j idx a + (ScatterDims.window sd j a : Int)
      ∧ ScatterDims.start sd j idx a + (ScatterDims.window sd j a : Int) < (S128x128.size a : Int) := by
    intro a
    match a with
    | ⟨0, _⟩ =>
      show 0 ≤ ScatterDims.start sd j idx (0 : Fin 2) + (ScatterDims.window sd j (0 : Fin 2) : Int) ∧ ScatterDims.start sd j idx (0 : Fin 2) + (ScatterDims.window sd j (0 : Fin 2) : Int) < (128 : Int)
      rw [start0, window0, h0]; have hj : (j 0).val < 64 := (j 0).isLt; omega
    | ⟨1, _⟩ =>
      show 0 ≤ ScatterDims.start sd j idx (1 : Fin 2) + (ScatterDims.window sd j (1 : Fin 2) : Int) ∧ ScatterDims.start sd j idx (1 : Fin 2) + (ScatterDims.window sd j (1 : Fin 2) : Int) < (128 : Int)
      rw [start1, window1, h1]; have hj : (j 1).val < 64 := (j 1).isLt; omega
  rw [dif_pos hb]
  refine congrArg some (funext fun a => Fin.ext ?_)
  match a with
  | ⟨0, _⟩ =>
    show (ScatterDims.start sd j idx (0 : Fin 2) + (ScatterDims.window sd j (0 : Fin 2) : Int)).toNat = o + (j 0).val
    rw [start0, window0, h0]; have hj : (j 0).val < 64 := (j 0).isLt; omega
  | ⟨1, _⟩ =>
    show (ScatterDims.start sd j idx (1 : Fin 2) + (ScatterDims.window sd j (1 : Fin 2) : Int)).toNat = o + (j 1).val
    rw [start1, window1, h1]; have hj : (j 1).val < 64 := (j 1).isLt; omega

variable {α : Type}

/-- Inside the written 64×64 square the array holds the update, at the index less the corner. -/
theorem window_hit (x : S128x128.Idx → α) (idx : IVec S2 32) (upd : S64x64.Idx → α) (o : Nat) (ho : o + 64 ≤ 128)
    (h0 : (idx (ix1 (0 : Fin 2))).toInt = (o : Int)) (h1 : (idx (ix1 (1 : Fin 2))).toInt = (o : Int))
    (k c : Fin 128) (a b : Fin 64) (hk : k.val = o + a.val) (hc : c.val = o + b.val) :
    Host.scatter sd (fun _ b => b) x idx upd (ix2 k c) = upd (ix2 a b) := by
  refine Cert.OverwriteScatter.scatter_set_hit sd x idx upd (ix2 k c) (upd (ix2 a b)) (ix2 a b) ?_ ?_
  · rw [resultIdx_eq (ix2 a b) idx o ho h0 h1]
    refine congrArg some (funext fun ax => Fin.ext ?_)
    match ax with
    | ⟨0, _⟩ => exact hk.symm
    | ⟨1, _⟩ => exact hc.symm
  · intro j hj
    rw [resultIdx_eq j idx o ho h0 h1] at hj
    have e := Option.some.inj hj
    have e0 : o + (j 0).val = k.val := congrArg (fun i : S128x128.Idx => (i 0).val) e
    have e1 : o + (j 1).val = c.val := congrArg (fun i : S128x128.Idx => (i 1).val) e
    have ha : (j 0 : Fin 64) = a := Fin.ext (by omega)
    have hb : (j 1 : Fin 64) = b := Fin.ext (by omega)
    exact congrArg upd ((eq_ix2 j).trans (congrArg₂ ix2 ha hb))

/-- Outside the written square the array is as it was. -/
theorem window_miss (x : S128x128.Idx → α) (idx : IVec S2 32) (upd : S64x64.Idx → α) (o : Nat) (ho : o + 64 ≤ 128)
    (h0 : (idx (ix1 (0 : Fin 2))).toInt = (o : Int)) (h1 : (idx (ix1 (1 : Fin 2))).toInt = (o : Int))
    (k c : Fin 128) (hout : ¬ (o ≤ k.val ∧ k.val < o + 64 ∧ o ≤ c.val ∧ c.val < o + 64)) :
    Host.scatter sd (fun _ b => b) x idx upd (ix2 k c) = x (ix2 k c) := by
  refine Cert.OverwriteScatter.scatter_set_miss sd x idx upd (ix2 k c) fun j hj => hout ?_
  rw [resultIdx_eq j idx o ho h0 h1] at hj
  have e := Option.some.inj hj
  have e0 : o + (j 0).val = k.val := congrArg (fun i : S128x128.Idx => (i 0).val) e
  have e1 : o + (j 1).val = c.val := congrArg (fun i : S128x128.Idx => (i 1).val) e
  have hj0 : (j 0).val < 64 := (j 0).isLt
  have hj1 : (j 1).val < 64 := (j 1).isLt
  omega

/-- The start index vector the host builds: the word `w` twice. -/
def starts (w : BitVec 32) : IVec S2 32 :=
  concatenate S2 0 [⟨S1, broadcastInDim S1 ![] bcast_S_S1 (constantI S_ 32 w)⟩, ⟨S1, broadcastInDim S1 ![] bcast_S_S1 (constantI S_ 32 w)⟩] concatenates_S1_S1_S2_d0

theorem starts_apply (w : BitVec 32) (q : Fin 2) : starts w (ix1 q) = w := by
  have hb : ∀ y : S1.Idx, broadcastInDim S1 ![] bcast_S_S1 (constantI S_ 32 w) y = w := fun y =>
    (broadcastInDim_apply _ bcast_S_S1 _ y ix0 (fun a => a.elim0)).trans rfl
  unfold starts
  match q with
  | ⟨0, _⟩ =>
    exact (concatenate_pair_apply_left (t := S2) (s₁ := S1) (s₂ := S1) 0 _ _ concatenates_S1_S1_S2_d0 (ix1 (⟨0, by omega⟩ : Fin 2)) rfl (ix1 (0 : Fin 1))
      (fun b => by match b with | ⟨0, _⟩ => rfl)).trans (hb _)
  | ⟨1, _⟩ =>
    exact (concatenate_pair_apply_right (t := S2) (s₁ := S1) (s₂ := S1) 0 _ _ concatenates_S1_S1_S2_d0 (ix1 (⟨1, by omega⟩ : Fin 2)) rfl rfl (ix1 (0 : Fin 1))
      (fun b hb' => by match b with | ⟨0, _⟩ => exact absurd rfl hb') rfl).trans (hb _)

/-- `W` written at (0, 0) and at (64, 64) into `z`. -/
def blockdiag (W : S64x64.Idx → α) (z : S128x128.Idx → α) : S128x128.Idx → α :=
  Host.scatter sd (fun _ b => b) (Host.scatter sd (fun _ b => b) z (starts 0#32) W) (starts 64#32) W

theorem st0 (q : Fin 2) : (starts 0#32 (ix1 q)).toInt = ((0 : Nat) : Int) := by rw [starts_apply]; rfl
theorem st64 (q : Fin 2) : (starts 64#32 (ix1 q)).toInt = ((64 : Nat) : Int) := by rw [starts_apply]; decide

/-- The upper-left block is `W`. -/
theorem blockdiag_low (W : S64x64.Idx → α) (z : S128x128.Idx → α) (k c : Fin 128) (a b : Fin 64)
    (hk : k.val = a.val) (hc : c.val = b.val) : blockdiag W z (ix2 k c) = W (ix2 a b) := by
  unfold blockdiag
  rw [window_miss _ _ _ 64 (by omega) (st64 0) (st64 1) k c (by have := a.isLt; omega)]
  exact window_hit _ _ _ 0 (by omega) (st0 0) (st0 1) k c a b (by omega) (by omega)

/-- The lower-right block is `W`. -/
theorem blockdiag_high (W : S64x64.Idx → α) (z : S128x128.Idx → α) (k c : Fin 128) (a b : Fin 64)
    (hk : k.val = 64 + a.val) (hc : c.val = 64 + b.val) : blockdiag W z (ix2 k c) = W (ix2 a b) := by
  unfold blockdiag
  exact window_hit _ _ _ 64 (by omega) (st64 0) (st64 1) k c a b hk hc

/-- Off the two diagonal blocks the array is `z`. -/
theorem blockdiag_off (W : S64x64.Idx → α) (z : S128x128.Idx → α) (k c : Fin 128)
    (hne : (k.val < 64 ∧ 64 ≤ c.val) ∨ (64 ≤ k.val ∧ c.val < 64)) : blockdiag W z (ix2 k c) = z (ix2 k c) := by
  unfold blockdiag
  rw [window_miss _ _ _ 64 (by omega) (st64 0) (st64 1) k c (by omega)]
  exact window_miss _ _ _ 0 (by omega) (st0 0) (st0 1) k c (by omega)

end Cert.BlockDiag
-- ==== Proof.HostDefs.lean ====
import proofs.«111251_j75857712382545_2_alg».proof.Proof.Gen.KernelIdeal
import proofs.«111251_j75857712382545_2_alg».proof.Proof.BlockDiag
import Idealize.ShloMosaic.PureOps.Ideal

/-! # The host's operations around the region, as functions of the argument arrays

Before the region the host gathers each edge's source and destination rows of the node table, builds the two
block-diagonal weights and doubles the two biases. After the region it adds each edge's message onto its
destination node's row and applies the leaky rectifier. -/

noncomputable section
namespace Cert.KernelIdeal.Hand
open Idealize.ShloMosaic Cert.KernelIdeal Cert.KernelIdeal.Gen

/-- An edge's node index, a negative one counted from the table's end, as a column of start indices. -/
def nodeIdx (e : IVec S1600000 32) : IVec S1600000x1 32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 100000#32))) e)

/-- The node table: the source rows above the destination rows. -/
def nodes (a0 a1 : FVec Ideal S50000x64 .f32) : FVec Ideal S100000x64 .bf16 :=
  truncf .bf16 (concatenate S100000x64 0 [⟨S50000x64, a0⟩, ⟨S50000x64, a1⟩] concatenates_S50000x64_S50000x64_S100000x64_d0) bitsLt_bf16_f32

/-- The rows of the node table the edges name. -/
def gathered (a0 a1 : FVec Ideal S50000x64 .f32) (e : IVec S1600000 32) : FVec Ideal S1600000x64 .bf16 :=
  Host.gather gather_S100000x64_S1600000x1_S1600000x64_1_0_n_n_0_1_164 (nodes a0 a1) (nodeIdx e)

def zeros128 : FVec Ideal S128x128 .f32 :=
  broadcastInDim S128x128 ![] bcast_S_S128x128 (constant (F := Ideal) S_ .f32 0x00000000#32)

/-- A weight's transpose on both diagonal blocks of a zero 128×128 array. -/
def wblk (W : FVec Ideal S64x64 .f32) : FVec Ideal S128x128 .f32 :=
  Cert.BlockDiag.blockdiag (transpose S64x64 [1, 0] W transposes_S64x64_S64x64_1_0) zeros128

/-- A bias twice. -/
def bcat (b : FVec Ideal S64 .f32) : FVec Ideal S128 .f32 :=
  concatenate S128 0 [⟨S64, b⟩, ⟨S64, b⟩] concatenates_S64_S64_S128_d0

/-- From the messages, one edge per row, to the result: summed onto the destination nodes, then the leaky rectifier. -/
def tail {F : FTy → Type} [FloatOps F] (msgs : FVec F S1600000x64 .f32) (dst : IVec S1600000 32) : FVec F S100000x64 .f32 :=
  select
    (cmpf .ogt
      (Host.scatterAdd scatter_S100000x64_S1600000x1_S1600000x64_1_0_0_1
        (broadcastInDim S100000x64 ![] bcast_S_S100000x64 (constant (F := F) S_ .f32 0x00000000#32))
        (broadcastInDim S1600000x1 ![0] bcast_S1600000_S1600000x1_0 dst) msgs)
      (broadcastInDim S100000x64 ![] bcast_S_S100000x64 (constant (F := F) S_ .f32 0x00000000#32)))
    (Host.scatterAdd scatter_S100000x64_S1600000x1_S1600000x64_1_0_0_1
      (broadcastInDim S100000x64 ![] bcast_S_S100000x64 (constant (F := F) S_ .f32 0x00000000#32))
      (broadcastInDim S1600000x1 ![0] bcast_S1600000_S1600000x1_0 dst) msgs)
    (mulf (broadcastInDim S100000x64 ![] bcast_S_S100000x64 (constant (F := F) S_ .f32 0x3E4CCCCD#32))
      (Host.scatterAdd scatter_S100000x64_S1600000x1_S1600000x64_1_0_0_1
        (broadcastInDim S100000x64 ![] bcast_S_S100000x64 (constant (F := F) S_ .f32 0x00000000#32))
        (broadcastInDim S1600000x1 ![0] bcast_S1600000_S1600000x1_0 dst) msgs))

end Cert.KernelIdeal.Hand
-- ==== Proof.Host.lean ====
import proofs.«111251_j75857712382545_2_alg».proof.Proof.Gen.KernelIdeal.Frame
import proofs.«111251_j75857712382545_2_alg».proof.Proof.HostDefs
import Idealize.ShloMosaic.Lib.StableHlo.Run
import Idealize.ShloMosaic.Lib.Pipeline.Value
import Idealize.ShloMosaic.PureOps.Ideal

/-! # The arrays the region is launched on, and @main's result, read off the host operations

Each array the region finds is the named function of the argument arrays; @main's result is the tail's function of
the region's output array, laid out one edge per row, and of the destination indices. -/

noncomputable section
namespace Cert.KernelIdeal.Hand
open Idealize.ShloMosaic Idealize.ShloMosaic.TcCoe Idealize.SL.Sem Cert.KernelIdeal Cert.KernelIdeal.Gen

variable (m : (ℓ : Loc nD τ sig) → Buf (Elt Ideal) ℓ)

set_option maxHeartbeats 4000000 in
/-- The region finds the gathered source rows laid out two edges per row. -/
theorem V_xs (c : Dev nD) : V m c main_v16 = shapeCast S800000x128
    (gathered (m ((c.tc : Thread nD τ).loc main_arg0)) (m ((c.tc : Thread nD τ).loc main_arg1)) (m ((c.tc : Thread nD τ).loc main_arg7)))
    shapeCasts_S1600000x64_S800000x128 := by
  show StableHlo.after hostOps0 (fun b => m (c, b)) (Proc.devRef .tc main_v16) = _
  after_results_simp <;> rfl

set_option maxHeartbeats 4000000 in
/-- The region finds the gathered destination rows laid out two edges per row. -/
theorem V_xd (c : Dev nD) : V m c main_v17 = shapeCast S800000x128
    (gathered (m ((c.tc : Thread nD τ).loc main_arg0)) (m ((c.tc : Thread nD τ).loc main_arg1)) (m ((c.tc : Thread nD τ).loc main_arg8)))
    shapeCasts_S1600000x64_S800000x128 := by
  show StableHlo.after hostOps0 (fun b => m (c, b)) (Proc.devRef .tc main_v17) = _
  after_results_simp <;> rfl

set_option maxHeartbeats 4000000 in
/-- The region finds the edge norms laid out two per row. -/
theorem V_norm (c : Dev nD) : V m c main_v18 = shapeCast S800000x2 (m ((c.tc : Thread nD τ).loc main_arg2)) shapeCasts_S1600000x1_S800000x2 := by
  show StableHlo.after hostOps0 (fun b => m (c, b)) (Proc.devRef .tc main_v18) = _
  after_results_simp <;> rfl

set_option maxHeartbeats 4000000 in
/-- The region finds the first weight's transpose on both diagonal blocks of a zero array. -/
theorem V_w1 (c : Dev nD) : V m c main_v29 = wblk (m ((c.tc : Thread nD τ).loc main_arg3)) := by
  show StableHlo.after hostOps0 (fun b => m (c, b)) (Proc.devRef .tc main_v29) = _
  after_results_simp <;> rfl

set_option maxHeartbeats 4000000 in
/-- The region finds the second weight's transpose on both diagonal blocks of a zero array. -/
theorem V_w2 (c : Dev nD) : V m c main_v38 = wblk (m ((c.tc : Thread nD τ).loc main_arg5)) := by
  show StableHlo.after hostOps0 (fun b => m (c, b)) (Proc.devRef .tc main_v38) = _
  after_results_simp <;> rfl

set_option maxHeartbeats 4000000 in
/-- The region finds the first bias twice. -/
theorem V_b1 (c : Dev nD) : V m c main_v39 = bcat (m ((c.tc : Thread nD τ).loc main_arg4)) := by
  show StableHlo.after hostOps0 (fun b => m (c, b)) (Proc.devRef .tc main_v39) = _
  after_results_simp <;> rfl

set_option maxHeartbeats 4000000 in
/-- The region finds the second bias twice. -/
theorem V_b2 (c : Dev nD) : V m c main_v40 = bcat (m ((c.tc : Thread nD τ).loc main_arg6)) := by
  show StableHlo.after hostOps0 (fun b => m (c, b)) (Proc.devRef .tc main_v40) = _
  after_results_simp <;> rfl

set_option maxRecDepth 8192 in
set_option maxHeartbeats 4000000 in
/-- The lines after the region, run from ANY buffer contents `W`, at any float instance: @main's result is the
    tail's function of what `W` holds at the region's output array and at the destination indices. -/
theorem tail_after {F : FTy → Type} [FloatOps F] (W : Valuation τ sig (Elt F)) :
    StableHlo.after ([hostOps1, hostOps1_1] : List (List (HloOp τ sig (Elt F)))).flatten W (Proc.devRef .tc main_v50)
      = tail (shapeCast S1600000x64 (W (Proc.devRef .tc main_v41)) shapeCasts_S800000x128_S1600000x64)
          (W (Proc.devRef .tc main_arg8)) := by
  simp only [hostOps1, hostOps1_1, List.flatten_cons, List.flatten_nil, List.append_nil, List.cons_append, List.nil_append]
  after_results_simp <;> rfl

/-- @main's result after the tail, for any proof data of the region: the tail's function of the output array the
    data ends with, one edge per row. -/
theorem tail_result (dats' : (p : Fin 1) → (c : Dev nD) → Pipeline.Dat τ (Elt Ideal) Unit ℕ (UR sig nD τ) ℕ (cfgs p) c) (c : Dev nD) :
    Pipeline.afterTail₀ cfgs dats' 0 (V0 m) [hostOps1, hostOps1_1] c main_v50
      = tail (F := Ideal) (shapeCast S1600000x64 ((dats' 0 c).arrAt 7 (cfgs 0).N) shapeCasts_S800000x128_S1600000x64)
          (m ((c.tc : Thread nD τ).loc main_arg8)) := by
  unfold Pipeline.afterTail₀
  rw [tail_after, Pipeline.withArrays_arr spec0 launch0.win.arr_inj c _ _ 7,
    Pipeline.withArrays_of_ne _ c (V0 m c) _ main_arg8 (by exact (by decide : ∀ w, Pipeline.arrRef spec0 w ≠ main_arg8))]
  rw [show V0 m c (Proc.devRef .tc main_arg8) = m ((c.tc : Thread nD τ).loc main_arg8) from V_main_arg8 m c]

end Cert.KernelIdeal.Hand
-- ==== Proof.HalfSums.lean ====
import Mathlib.Algebra.BigOperators.Fin

/-! # A sum over 128 terms, half of which vanish

A packed row holds two edges' 64 features side by side, and a column of a block-diagonal weight is zero on the
rows of the other edge. So the 128-term contraction of a packed row with such a column is the 64-term contraction
over the one edge's half: the lower half when the upper terms vanish, the upper half when the lower ones do. -/

namespace Cert.HalfSums

variable {M : Type} [AddCommMonoid M]

/-- The terms from 64 on vanish: the sum is over the first 64. -/
theorem sum128_low (f : Fin 128 → M) (hz : ∀ k : Fin 128, 64 ≤ k.val → f k = 0) :
    ∑ k : Fin 128, f k = ∑ d : Fin 64, f ⟨d.val, by have := d.isLt; omega⟩ := by
  have hup : ∑ i : Fin 64, f (Fin.natAdd 64 i) = 0 :=
    Finset.sum_eq_zero fun i _ => hz _ (by show 64 ≤ 64 + i.val; omega)
  rw [Fin.sum_univ_add (a := 64) (b := 64) f, hup, add_zero]
  exact Finset.sum_congr rfl fun i _ => congrArg f (Fin.ext rfl)

/-- The terms below 64 vanish: the sum is over the last 64. -/
theorem sum128_high (f : Fin 128 → M) (hz : ∀ k : Fin 128, k.val < 64 → f k = 0) :
    ∑ k : Fin 128, f k = ∑ d : Fin 64, f ⟨64 + d.val, by have := d.isLt; omega⟩ := by
  have hlo : ∑ i : Fin 64, f (Fin.castAdd 64 i) = 0 :=
    Finset.sum_eq_zero fun i _ => hz _ (by show i.val < 64; exact i.isLt)
  rw [Fin.sum_univ_add (a := 64) (b := 64) f, hlo, zero_add]
  exact Finset.sum_congr rfl fun i _ => congrArg f (Fin.ext rfl)

end Cert.HalfSums
-- ==== Proof.RowMsg.lean ====
import proofs.«111251_j75857712382545_2_alg».proof.Proof.HalfSums
import Idealize.ShloMosaic.PureOps.Ideal
import Idealize.ShloMosaic.Lib.ValueIdx

/-! # One message, written two ways

`edgeMsg` is the message of edge `e` at output feature `o` as the reference computes it:
`n[e] · (Σ_d xs[e,d]·W1[o,d] + b1[o] + Σ_d (xs[e,d]·xd[e,d])·W2[o,d] + b2[o])`.

`rowMsg` is what the kernel computes at row `p`, lane `c` of arrays that hold two edges per 128-lane row:
`(Σ_k xs[p,k]·w1[k,c] + Σ_k (xs[p,k]·xd[p,k])·w2[k,c] + b1[c] + b2[c]) · n`, the norm taken from column 0 for the
lanes below 64 and from column 1 for the others.

They agree when lane `c = 64h + o` belongs to edge `e = 2p + h`, the packed row holds that edge's features on the
lanes `64h … 64h + 63`, and column `c` of each packed weight is row `o` of the weight on those same lanes and zero on
the other 64. The law is commutativity and associativity of `+` and `·` on the extended reals and `x · 0 = 0`; no
finiteness is needed. -/

noncomputable section
namespace Cert.RowMsg
open Idealize.ShloMosaic Idealize.ShloMosaic.ValueIdx

/-- The packed form at row `r`, lane `c`, over arrays of `R` rows. -/
def rowMsg {R : ℕ} (xs xd : (⟨2, ![R, 128]⟩ : Shape).Idx → EReal) (nrm : (⟨2, ![R, 2]⟩ : Shape).Idx → EReal)
    (w1 w2 : (⟨2, ![128, 128]⟩ : Shape).Idx → EReal) (b1 b2 : (⟨1, ![128]⟩ : Shape).Idx → EReal)
    (r : Fin R) (c : Fin 128) : EReal :=
  ((((∑ k : Fin 128, xs (ix2 r k) * w1 (ix2 k c)) + ∑ k : Fin 128, (xs (ix2 r k) * xd (ix2 r k)) * w2 (ix2 k c))
      + b1 (ix1 c)) + b2 (ix1 c))
    * (if c.val < 64 then nrm (ix2 r (0 : Fin 2)) else nrm (ix2 r (1 : Fin 2)))

/-- The packed form depends on the row's entries only: two rows with equal entries give equal values. -/
theorem rowMsg_congr {R R' : ℕ} (xs xd : (⟨2, ![R, 128]⟩ : Shape).Idx → EReal) (nrm : (⟨2, ![R, 2]⟩ : Shape).Idx → EReal)
    (xs' xd' : (⟨2, ![R', 128]⟩ : Shape).Idx → EReal) (nrm' : (⟨2, ![R', 2]⟩ : Shape).Idx → EReal)
    (w1 w2 : (⟨2, ![128, 128]⟩ : Shape).Idx → EReal) (b1 b2 : (⟨1, ![128]⟩ : Shape).Idx → EReal)
    (r : Fin R) (r' : Fin R') (c : Fin 128)
    (hxs : ∀ k : Fin 128, xs (ix2 r k) = xs' (ix2 r' k)) (hxd : ∀ k : Fin 128, xd (ix2 r k) = xd' (ix2 r' k))
    (hn : ∀ q : Fin 2, nrm (ix2 r q) = nrm' (ix2 r' q)) :
    rowMsg xs xd nrm w1 w2 b1 b2 r c = rowMsg xs' xd' nrm' w1 w2 b1 b2 r' c := by
  unfold rowMsg
  simp only [hxs, hxd, hn]

/-- The reference's form for edge `e`, output feature `o`. -/
def edgeMsg (xs xd : (⟨2, ![1600000, 64]⟩ : Shape).Idx → EReal) (nrm : (⟨2, ![1600000, 1]⟩ : Shape).Idx → EReal)
    (W1 W2 : (⟨2, ![64, 64]⟩ : Shape).Idx → EReal) (B1 B2 : (⟨1, ![64]⟩ : Shape).Idx → EReal)
    (e : Fin 1600000) (o : Fin 64) : EReal :=
  nrm (ix2 e (0 : Fin 1)) * ((((∑ k : Fin 64, xs (ix2 e k) * W1 (ix2 o k)) + B1 (ix1 o))
    + ∑ k : Fin 64, (xs (ix2 e k) * xd (ix2 e k)) * W2 (ix2 o k)) + B2 (ix1 o))

/-- A 128-term contraction against a column that is zero off the lanes `64h … 64h + 63` is the 64-term one. -/
theorem contract_half (f w : Fin 128 → EReal) (g u : Fin 64 → EReal) (h : Fin 2)
    (hf : ∀ d : Fin 64, ∀ k : Fin 128, k.val = 64 * h.val + d.val → f k = g d)
    (hw : ∀ d : Fin 64, ∀ k : Fin 128, k.val = 64 * h.val + d.val → w k = u d)
    (hz : ∀ k : Fin 128, k.val / 64 ≠ h.val → w k = 0) :
    ∑ k : Fin 128, f k * w k = ∑ d : Fin 64, g d * u d := by
  match h with
  | ⟨0, _⟩ =>
    rw [Cert.HalfSums.sum128_low (fun k => f k * w k) (fun k hk => by
      rw [hz k (by show k.val / 64 ≠ 0; omega), mul_zero])]
    exact Finset.sum_congr rfl fun d _ => by
      rw [hf d _ (by show d.val = 64 * 0 + d.val; omega), hw d _ (by show d.val = 64 * 0 + d.val; omega)]
  | ⟨1, _⟩ =>
    rw [Cert.HalfSums.sum128_high (fun k => f k * w k) (fun k hk => by
      rw [hz k (by show k.val / 64 ≠ 1; omega), mul_zero])]
    exact Finset.sum_congr rfl fun d _ => by
      rw [hf d _ (by show 64 + d.val = 64 * 1 + d.val; omega), hw d _ (by show 64 + d.val = 64 * 1 + d.val; omega)]

/-- The packed form at lane `64h + o` of row `p` is edge `2p + h`'s message at `o`. -/
theorem rowMsg_eq_edgeMsg
    (P16 P17 : (⟨2, ![800000, 128]⟩ : Shape).Idx → EReal) (P18 : (⟨2, ![800000, 2]⟩ : Shape).Idx → EReal)
    (WB1 WB2 : (⟨2, ![128, 128]⟩ : Shape).Idx → EReal) (BC1 BC2 : (⟨1, ![128]⟩ : Shape).Idx → EReal)
    (xs xd : (⟨2, ![1600000, 64]⟩ : Shape).Idx → EReal) (nrm : (⟨2, ![1600000, 1]⟩ : Shape).Idx → EReal)
    (W1 W2 : (⟨2, ![64, 64]⟩ : Shape).Idx → EReal) (B1 B2 : (⟨1, ![64]⟩ : Shape).Idx → EReal)
    (p : Fin 800000) (c : Fin 128) (e : Fin 1600000) (o : Fin 64) (h : Fin 2)
    (hc : c.val = 64 * h.val + o.val)
    (h16 : ∀ d : Fin 64, ∀ k : Fin 128, k.val = 64 * h.val + d.val → P16 (ix2 p k) = xs (ix2 e d))
    (h17 : ∀ d : Fin 64, ∀ k : Fin 128, k.val = 64 * h.val + d.val → P17 (ix2 p k) = xd (ix2 e d))
    (h18 : P18 (ix2 p h) = nrm (ix2 e (0 : Fin 1)))
    (hw1 : ∀ d : Fin 64, ∀ k : Fin 128, k.val = 64 * h.val + d.val → WB1 (ix2 k c) = W1 (ix2 o d))
    (hz1 : ∀ k : Fin 128, k.val / 64 ≠ h.val → WB1 (ix2 k c) = 0)
    (hw2 : ∀ d : Fin 64, ∀ k : Fin 128, k.val = 64 * h.val + d.val → WB2 (ix2 k c) = W2 (ix2 o d))
    (hz2 : ∀ k : Fin 128, k.val / 64 ≠ h.val → WB2 (ix2 k c) = 0)
    (hb1 : BC1 (ix1 c) = B1 (ix1 o)) (hb2 : BC2 (ix1 c) = B2 (ix1 o)) :
    rowMsg P16 P17 P18 WB1 WB2 BC1 BC2 p c = edgeMsg xs xd nrm W1 W2 B1 B2 e o := by
  unfold rowMsg edgeMsg
  have hA := contract_half (fun k => P16 (ix2 p k)) (fun k => WB1 (ix2 k c)) (fun d => xs (ix2 e d)) (fun d => W1 (ix2 o d)) h
    h16 hw1 hz1
  have hB := contract_half (fun k => P16 (ix2 p k) * P17 (ix2 p k)) (fun k => WB2 (ix2 k c))
    (fun d => xs (ix2 e d) * xd (ix2 e d)) (fun d => W2 (ix2 o d)) h
    (fun d k hk => by rw [h16 d k hk, h17 d k hk]) hw2 hz2
  have hN : (if c.val < 64 then P18 (ix2 p (0 : Fin 2)) else P18 (ix2 p (1 : Fin 2))) = nrm (ix2 e (0 : Fin 1)) := by
    rw [← h18]
    match h, hc with
    | ⟨0, _⟩, hc =>
      have hc' : c.val = 64 * 0 + o.val := hc
      rw [if_pos (by have := o.isLt; omega)]; rfl
    | ⟨1, _⟩, hc =>
      have hc' : c.val = 64 * 1 + o.val := hc
      rw [if_neg (by omega)]; rfl
  rw [hA, hB, hN, hb1, hb2, mul_comm, add_right_comm (∑ d : Fin 64, xs (ix2 e d) * W1 (ix2 o d))]

end Cert.RowMsg
-- ==== Proof.Body.lean ====
import proofs.«111251_j75857712382545_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«111251_j75857712382545_2_alg».proof.Proof.RowMsg

/-! # What the kernel body stores, element by element

At row `r` and lane `c` of a 6400×128 block the body stores
`(Σ_k xs[r,k]·w1[k,c] + Σ_k (xs[r,k]·xd[r,k])·w2[k,c] + b1[c] + b2[c]) · n`, where `n` is column 0 of the block's
two norm columns for the lanes below 64 and column 1 for the others. The changes of float format are the identity
on the extended reals. -/

noncomputable section
namespace Cert.PackedBody
open Idealize.ShloMosaic Idealize.ShloMosaic.ValueIdx Cert.KernelIdeal Cert.KernelIdeal.Gen

abbrev dd : DotDims S6400x128 S128x128 S6400x128 := dot_S6400x128_S128x128_S6400x128_1_0_0_1_n_n

theorem lhs_row (i : S6400x128.Idx) (q : dd.contr.Idx) : (dd.lhsIdx i q 0).val = (i 0).val := by
  unfold DotDims.lhsIdx
  rw [dif_neg (show ¬(0 : Fin S6400x128.rank) ∈ dd.lhsBatch by decide), dif_pos (show (0 : Fin S6400x128.rank) ∈ dd.lhsNonContracting by decide)]
  rfl

theorem rhs_col (i : S6400x128.Idx) (q : dd.contr.Idx) : (dd.rhsIdx i q 1).val = (i 1).val := by
  unfold DotDims.rhsIdx
  rw [dif_neg (show ¬(1 : Fin S128x128.rank) ∈ dd.rhsBatch by decide), dif_pos (show (1 : Fin S128x128.rank) ∈ dd.rhsNonContracting by decide)]
  rfl

/-- The matrix product into a zero accumulator, at row `r` and lane `c`: the sum over the 128 contracted positions. -/
theorem mm_apply {φ₁ φ₂ : FTy} (lhs : FVec Ideal S6400x128 φ₁) (rhs : FVec Ideal S128x128 φ₂) (r : Fin 6400) (c : Fin 128) :
    matmul dd none lhs rhs (constant (F := Ideal) S6400x128 .f32 0x00000000#32) (ix2 r c)
      = ∑ k : Fin 128, lhs (ix2 r k) * rhs (ix2 k c) := by
  refine (Ideal.matmul_constant_zero_apply dd none lhs rhs (ix2 r c)).trans ?_
  rw [← Equiv.sum_comp (ValueIdx.contrEquiv1 dd 128 rfl rfl).symm]
  refine Finset.sum_congr rfl fun k _ => ?_
  have hk := ValueIdx.contrEquiv1_symm_val dd 128 rfl rfl k
  have el : dd.lhsIdx (ix2 r c) ((ValueIdx.contrEquiv1 dd 128 rfl rfl).symm k) = ix2 r k := funext fun a => Fin.ext (by
    match a with
    | ⟨0, _⟩ => exact lhs_row _ _
    | ⟨1, _⟩ => exact (dd.lhsIdx_val_of_single rfl _ _).trans hk)
  have er : dd.rhsIdx (ix2 r c) ((ValueIdx.contrEquiv1 dd 128 rfl rfl).symm k) = ix2 k c := funext fun a => Fin.ext (by
    match a with
    | ⟨0, _⟩ => exact (dd.rhsIdx_val_of_single rfl _ _).trans hk
    | ⟨1, _⟩ => exact rhs_col _ _)
  rw [el, er]

variable {α : Type}

/-- One column broadcast over the lanes reads, at `(p, c)`, the column's entry in row `p`. -/
theorem bcast_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane test: lane `c` compares below 64 exactly when it is. -/
theorem lane_lt : ∀ c : Fin 128, IntOp.cmpi .slt (BitVec.ofNat 32 c.val) 64#32 = if c.val < 64 then 1#1 else 0#1 := by
  decide

/-- The stored value at row `r`, lane `c` of a block is the packed form of the block's loaded rows. -/
theorem pay_apply (v0 v2 : Vec Ideal S6400x128 .bf16) (v8 v11 : Vec Ideal S128x128 .f32) (v17 v22 : Vec Ideal S128 .f32)
    (v27 : Vec Ideal S6400x2 .f32) (r : Fin 6400) (c : Fin 128) :
    k0_pay1 v0 v2 v8 v11 v17 v22 v27 (ix2 r c) = Cert.RowMsg.rowMsg (R := 6400) v0 v2 v27 v8 v11 v17 v22 r c := by
  unfold k0_pay1 Cert.RowMsg.rowMsg
  simp only [shapeCast_self]
  rw [mulf_apply, addf_apply, addf_apply, addf_apply, mm_apply, mm_apply]
  rw [broadcastTo_1b_ab_apply, broadcastTo_1b_ab_apply, shapeCast_a_1a_apply, shapeCast_a_1a_apply]
  rw [select_apply, bcast_col_apply, bcast_col_apply, slice2_axis1_eq, slice2_axis1_eq]
  have hsel : cmpi CmpIPredicate.slt (iota Kind.tc S6400x128 32 [1] iota_S6400x128_d1_w32) (broadcast S6400x128 64#32) (ix2 r c)
      = if c.val < 64 then 1#1 else 0#1 := by
    show IntOp.cmpi .slt (iota Kind.tc S6400x128 32 [1] iota_S6400x128_d1_w32 (ix2 r c)) 64#32 = _
    rw [iota_single_apply]
    exact lane_lt c
  rw [hsel]
  simp only [truncf_apply, extf_apply, mulf_apply]
  by_cases hc : c.val < 64
  · rw [if_pos hc, if_pos hc, select_one]; rfl
  · rw [if_neg hc, if_neg hc, select_zero]; rfl

end Cert.PackedBody
-- ==== Proof.Blocks.lean ====
import proofs.«111251_j75857712382545_2_alg».proof.Proof.Gen.KernelIdeal.Frame
import proofs.«111251_j75857712382545_2_alg».proof.Proof.Body
import proofs.«111251_j75857712382545_2_alg».proof.Proof.RowMsg
import Idealize.ShloMosaic.Lib.Pipeline.Value
import Idealize.ShloMosaic.PureOps.Ideal

/-! # From the grid's blocks to the region's output array

Grid point `t` works on rows `6400·t … 6400·t + 6399` of the three edge arrays and of the output, and on the whole
of the two weights and the two biases. So what point `t` writes back is rows `6400·t …` of ONE array, `packed`: the
packed form of the arrays the region is launched on. The 125 blocks cover the 800000 rows, so that array is what
the output holds after the region. -/

noncomputable section
namespace Cert.KernelIdeal.Hand
open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

theorem off2 : (![0, 0] : Fin 2 → Nat) = fun _ => 0 := funext fun a => by fin_cases a <;> rfl
theorem off1 : (![0] : Fin 1 → Nat) = fun _ => 0 := funext fun a => by fin_cases a <;> rfl

/-- The block index of every window at every grid point: the row-blocked ones move with the point, the rest stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The array the output ends holding: the packed form of the arrays the region finds. -/
def packed (c : Dev nD) : S800000x128.Idx → EReal := fun i =>
  Cert.RowMsg.rowMsg (R := 800000) (V m c main_v16) (V m c main_v17) (V m c main_v18) (V m c main_v29) (V m c main_v38)
    (V m c main_v39) (V m c main_v40) (i 0) (i 1)

/-- Row `r` of the source-features block at point `t` is row `6400·t + r` of the array. -/
theorem blk_xs (c : Dev nD) (t : Fin cfg0.N) (r : Fin 6400) (k : Fin 128) (p : Fin 800000) (hp : p.val = t.val * 6400 + r.val) :
    (iblk m c 0 t : Vec Ideal S6400x128 .bf16) (ix2 r k) = V m c main_v16 (ix2 p k) := by
  obtain ⟨e0, e1, -⟩ := index_facts t
  unfold iblk
  rw [View.read_apply]
  show V m c main_v16 _ = V m c main_v16 _
  refine congrArg (V m c main_v16) (funext fun a => Fin.ext ?_)
  match a with
  | ⟨0, _⟩ => show win0_0.index t (0 : Fin 2) * 6400 + 1 * r.val = p.val; rw [e0, hp]; omega
  | ⟨1, _⟩ => show win0_0.index t (1 : Fin 2) * 128 + 1 * k.val = k.val; rw [e1]; omega

/-- Row `r` of the destination-features block at point `t` is row `6400·t + r` of the array. -/
theorem blk_xd (c : Dev nD) (t : Fin cfg0.N) (r : Fin 6400) (k : Fin 128) (p : Fin 800000) (hp : p.val = t.val * 6400 + r.val) :
    (iblk m c 1 t : Vec Ideal S6400x128 .bf16) (ix2 r k) = V m c main_v17 (ix2 p k) := by
  obtain ⟨-, -, e0, e1, -⟩ := index_facts t
  unfold iblk
  rw [View.read_apply]
  show V m c main_v17 _ = V m c main_v17 _
  refine congrArg (V m c main_v17) (funext fun a => Fin.ext ?_)
  match a with
  | ⟨0, _⟩ => show win0_1.index t (0 : Fin 2) * 6400 + 1 * r.val = p.val; rw [e0, hp]; omega
  | ⟨1, _⟩ => show win0_1.index t (1 : Fin 2) * 128 + 1 * k.val = k.val; rw [e1]; omega

/-- Row `r` of the norm block at point `t` is row `6400·t + r` of the array. -/
theorem blk_nrm (c : Dev nD) (t : Fin cfg0.N) (r : Fin 6400) (q : Fin 2) (p : Fin 800000) (hp : p.val = t.val * 6400 + r.val) :
    (iblk m c 2 t : Vec Ideal S6400x2 .f32) (ix2 r q) = V m c main_v18 (ix2 p q) := by
  obtain ⟨-, -, -, -, e0, e1, -⟩ := index_facts t
  unfold iblk
  rw [View.read_apply]
  show V m c main_v18 _ = V m c main_v18 _
  refine congrArg (V m c main_v18) (funext fun a => Fin.ext ?_)
  match a with
  | ⟨0, _⟩ => show win0_2.index t (0 : Fin 2) * 6400 + 1 * r.val = p.val; rw [e0, hp]; omega
  | ⟨1, _⟩ => show win0_2.index t (1 : Fin 2) * 2 + 1 * q.val = q.val; rw [e1]; omega

/-- The first weight's block is the whole array at every point. -/
theorem blk_w1 (c : Dev nD) (t : Fin cfg0.N) : (iblk m c 3 t : Vec Ideal S128x128 .f32) = V m c main_v29 := by
  obtain ⟨-, -, -, -, -, -, e0, e1, -⟩ := index_facts t
  funext j
  unfold iblk
  rw [View.read_apply]
  show V m c main_v29 _ = V m c main_v29 j
  refine congrArg (V m c main_v29) (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

/-- The first bias's block is the whole array at every point. -/
theorem blk_b1 (c : Dev nD) (t : Fin cfg0.N) : (iblk m c 4 t : Vec Ideal S128 .f32) = V m c main_v39 := by
  obtain ⟨-, -, -, -, -, -, -, -, e0, -⟩ := index_facts t
  funext j
  unfold iblk
  rw [View.read_apply]
  show V m c main_v39 _ = V m c main_v39 j
  refine congrArg (V m c main_v39) (funext fun a => Fin.ext ?_)
  match a with
  | ⟨0, _⟩ => show win0_4.index t (0 : Fin 1) * 128 + 1 * (j 0).val = (j 0).val; rw [e0]; omega

/-- The second weight's block is the whole array at every point. -/
theorem blk_w2 (c : Dev nD) (t : Fin cfg0.N) : (iblk m c 5 t : Vec Ideal S128x128 .f32) = V m c main_v38 := by
  obtain ⟨-, -, -, -, -, -, -, -, -, e0, e1, -⟩ := index_facts t
  funext j
  unfold iblk
  rw [View.read_apply]
  show V m c main_v38 _ = V m c main_v38 j
  refine congrArg (V m c main_v38) (funext fun a => Fin.ext ?_)
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

/-- The second bias's block is the whole array at every point. -/
theorem blk_b2 (c : Dev nD) (t : Fin cfg0.N) : (iblk m c 6 t : Vec Ideal S128 .f32) = V m c main_v40 := by
  obtain ⟨-, -, -, -, -, -, -, -, -, -, -, e0, -⟩ := index_facts t
  funext j
  unfold iblk
  rw [View.read_apply]
  show V m c main_v40 _ = V m c main_v40 j
  refine congrArg (V m c main_v40) (funext fun a => Fin.ext ?_)
  match a with
  | ⟨0, _⟩ => show win0_6.index t (0 : Fin 1) * 128 + 1 * (j 0).val = (j 0).val; rw [e0]; omega

/-- What point `t` writes back is rows `6400·t …` of `packed`. -/
theorem flushed_eq (c : Dev nD) (t : Fin cfg0.N) :
    (dats m 0 c).flushed 7 t = ((cfg0.win 7).blk t).view.read (Elt Ideal) (packed m c) := by
  have hN : cfg0.N = 125 := N_0
  have ht : t.val < 125 := hN ▸ t.isLt
  obtain ⟨-, -, -, -, -, -, -, -, -, -, -, -, e0, e1⟩ := index_facts t
  show (cfg0.win 7).cut (grid0.coords t) ((dats m 0 c).after 7 t) = _
  rw [after0_7]
  unfold out0_7
  rw [View.canon_unit_zero off2]
  simp only [View.ld_unit_zero (S := S6400x128) off2, View.ld_unit_zero (S := S128x128) off2,
    View.ld_unit_zero (S := S128) off1, View.ld_unit_zero (S := S6400x2) off2]
  funext j
  obtain ⟨r, cc, rfl⟩ : ∃ (r : Fin 6400) (cc : Fin 128), j = ix2 r cc := ⟨j 0, j 1, eq_ix2 j⟩
  rw [View.read_apply]
  have hemb : ((cfg0.win 7).blk t).view.emb (ix2 r cc) = ix2 (⟨t.val * 6400 + r.val, by have := r.isLt; omega⟩ : Fin 800000) cc := by
    funext a
    apply Fin.ext
    match a with
    | ⟨0, _⟩ => show win0_7.index t (0 : Fin 2) * 6400 + 1 * r.val = t.val * 6400 + r.val; rw [e0]; omega
    | ⟨1, _⟩ => show win0_7.index t (1 : Fin 2) * 128 + 1 * cc.val = cc.val; rw [e1]; omega
  rw [hemb]
  show k0_pay1 (iblk m c 0 t) (iblk m c 1 t) (iblk m c 3 t) (iblk m c 5 t) (iblk m c 4 t) (iblk m c 6 t) (iblk m c 2 t) (ix2 r cc) = _
  refine (Cert.PackedBody.pay_apply (iblk m c 0 t) (iblk m c 1 t) (iblk m c 3 t) (iblk m c 5 t) (iblk m c 4 t) (iblk m c 6 t) (iblk m c 2 t) r cc).trans ?_
  rw [blk_w1 m c t, blk_w2 m c t, blk_b1 m c t, blk_b2 m c t]
  exact Cert.RowMsg.rowMsg_congr _ _ _ _ _ _ _ _ _ _ r _ cc
    (fun k => blk_xs m c t r k _ rfl) (fun k => blk_xd m c t r k _ rfl) (fun q => blk_nrm m c t r q _ rfl)

/-- An index of the output array is in point `t`'s block iff its row is among the block's 6400 rows. -/
theorem mem_blk (t : Fin cfg0.N) (i : S800000x128.Idx) :
    i ∈ ((cfg0.win 7).blk t).view.set ↔ ∀ a : Fin 2, win0_7.index t a * S6400x128.size a ≤ (i a).val ∧ (i a).val < win0_7.index t a * S6400x128.size a + S6400x128.size a := by
  show i ∈ ((View.whole main_v41).slice (win0_7.rect t)).set ↔ _
  rw [View.set_slice_whole, Rect.mem_set_unit]
  exact Iff.rfl

/-- After the region the output array is `packed`: row `ρ` is written by point `ρ / 6400`. -/
theorem final (c : Dev nD) : (dats m 0 c).arrAt 7 cfg0.N = packed m c :=
  (dats m 0 c).arrAt_eq_of_cover 7 (packed m c) (fun t _ => flushed_eq m c t) fun i => by
    have hN : cfg0.N = 125 := N_0
    have hi0 : (i 0).val < 800000 := (i 0).isLt
    have hi1 : (i 1).val < 128 := (i 1).isLt
    refine ⟨⟨(i 0).val / 6400, by rw [hN]; omega⟩, flush0_7 _, ?_⟩
    rw [mem_blk]
    obtain ⟨-, -, -, -, -, -, -, -, -, -, -, -, e0, e1⟩ := index_facts ⟨(i 0).val / 6400, by rw [hN]; omega⟩
    intro a
    match a with
    | ⟨0, _⟩ =>
      show win0_7.index _ (0 : Fin 2) * 6400 ≤ (i 0).val ∧ (i 0).val < win0_7.index _ (0 : Fin 2) * 6400 + 6400
      rw [e0]
      show (i 0).val / 6400 * 6400 ≤ (i 0).val ∧ (i 0).val < (i 0).val / 6400 * 6400 + 6400
      omega
    | ⟨1, _⟩ =>
      show win0_7.index _ (1 : Fin 2) * 128 ≤ (i 1).val ∧ (i 1).val < win0_7.index _ (1 : Fin 2) * 128 + 128
      rw [e1]
      omega

end Cert.KernelIdeal.Hand
-- ==== Proof.KernelRun.lean ====
import proofs.«111251_j75857712382545_2_alg».proof.Proof.Host
import proofs.«111251_j75857712382545_2_alg».proof.Proof.Blocks

/-! # The idealized kernel's run, with its result named

Every weakly fair execution of the idealized kernel program ends with @main's result at the tail's function of the
region's output array laid out one edge per row, and with the nine argument arrays as launched. -/

noncomputable section
namespace Cert.KernelIdeal.Hand
open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The result on core `c`. -/
def result (c : Dev nD) : Buf (Elt Ideal) ((c.tc : Thread nD τ).loc main_v50) :=
  tail (F := Ideal) (shapeCast S1600000x64 (packed m c) shapeCasts_S800000x128_S1600000x64) (m ((c.tc : Thread nD τ).loc main_arg8))

theorem run : θ_run defs (onTc (τ := τ) (main (F := Ideal))) ⟨m, fun _ => 0, ρ⟩ (fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v50 (Pipeline.mem_restRefs_of main_v50 (by decide) (by decide))).trans
        ((tail_result m (dats m) c).trans
          (congrArg (fun A : S800000x128.Idx → EReal =>
            tail (F := Ideal) (shapeCast S1600000x64 A shapeCasts_S800000x128_S1600000x64) (m ((c.tc : Thread nD τ).loc main_arg8)))
            (final m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.Hand
-- ==== Proof.Packing.lean ====
import proofs.«111251_j75857712382545_2_alg».proof.Proof.HostDefs
import proofs.«111251_j75857712382545_2_alg».proof.Proof.RowMsg
import Idealize.ShloMosaic.Lib.Pipeline.Value
import Idealize.ShloMosaic.Lib.ValueLayout
import Idealize.ShloMosaic.PureOps.Ideal.Laws

/-! # Two edges per row, and back

Laying the [1600000, 64] edge arrays out as [800000, 128] puts edge `2p + h`'s feature `d` at row `p`, lane
`64h + d`; the [1600000, 1] norms laid out as [800000, 2] put that edge's norm at row `p`, column `h`. The doubled
bias has `b[o]` at lane `64h + o`; the block-diagonal weight has `W[o, d]` at row `64h + d`, column `64h + o` and
zero where the row and column lie in different halves. So the packed form, laid out one edge per row again, is each
edge's message as the reference writes it. -/

noncomputable section
namespace Cert.KernelIdeal.Hand
open Idealize.ShloMosaic Idealize.ShloMosaic.ValueIdx Cert.KernelIdeal Cert.KernelIdeal.Gen

variable {α : Type}

/-- Row `p`, lane `k` of the packed layout is the entry of the edge layout at the same row-major position. -/
theorem pack_apply (X : S1600000x64.Idx → α) (p : Fin 800000) (k : Fin 128) (e : Fin 1600000) (d : Fin 64)
    (hk : e.val * 64 + d.val = p.val * 128 + k.val) :
    shapeCast S800000x128 X shapeCasts_S1600000x64_S800000x128 (ix2 p k) = X (ix2 e d) :=
  shapeCast_apply X _ _ _ (by
    rw [Shape.rowMajor_val_two, Shape.rowMajor_val_two]
    exact hk)

/-- Row `p`, column `q` of the packed norms is the norm of edge `2p + q`. -/
theorem pack_norm_apply (X : S1600000x1.Idx → α) (p : Fin 800000) (q : Fin 2) (e : Fin 1600000)
    (hk : e.val = p.val * 2 + q.val) :
    shapeCast S800000x2 X shapeCasts_S1600000x1_S800000x2 (ix2 p q) = X (ix2 e (0 : Fin 1)) :=
  shapeCast_apply X _ _ _ (by
    rw [Shape.rowMajor_val_two, Shape.rowMajor_val_two]
    show e.val * 1 + 0 = p.val * 2 + q.val
    omega)

/-- Edge `e`, feature `o` of the edge layout is the entry of the packed layout at the same row-major position. -/
theorem unpack_apply (Y : S800000x128.Idx → α) (e : Fin 1600000) (o : Fin 64) (p : Fin 800000) (c : Fin 128)
    (hk : p.val * 128 + c.val = e.val * 64 + o.val) :
    shapeCast S1600000x64 Y shapeCasts_S800000x128_S1600000x64 (ix2 e o) = Y (ix2 p c) :=
  shapeCast_apply Y _ _ _ (by
    rw [Shape.rowMajor_val_two, Shape.rowMajor_val_two]
    exact hk)

/-- The doubled bias at lane `64h + o` is the bias at `o`. -/
theorem bcat_apply (b : FVec Ideal S64 .f32) (c : Fin 128) (o : Fin 64) (h : Fin 2) (hc : c.val = 64 * h.val + o.val) :
    bcat b (ix1 c) = b (ix1 o) := by
  unfold bcat
  match h, hc with
  | ⟨0, _⟩, hc =>
    have hc' : c.val = 64 * 0 + o.val := hc
    exact concatenate_pair_apply_left (t := S128) (s₁ := S64) (s₂ := S64) 0 _ _ concatenates_S64_S64_S128_d0 (ix1 c) rfl (ix1 o)
      (fun a => by match a with | ⟨0, _⟩ => show o.val = c.val; omega)
  | ⟨1, _⟩, hc =>
    have hc' : c.val = 64 * 1 + o.val := hc
    exact concatenate_pair_apply_right (t := S128) (s₁ := S64) (s₂ := S64) 0 _ _ concatenates_S64_S64_S128_d0 (ix1 c) rfl rfl (ix1 o)
      (fun a ha => by match a with | ⟨0, _⟩ => exact absurd rfl ha) (by show o.val + 64 = c.val; omega)

theorem zeros128_apply (i : S128x128.Idx) : zeros128 i = 0 := by
  unfold zeros128
  refine (broadcastInDim_apply _ bcast_S_S128x128 _ i ix0 (fun a => a.elim0)).trans ?_
  show Ideal.ofBits .f32 0x00000000#32 = 0
  exact Ideal.ofBits_zero_f32

/-- The packed weight on its diagonal blocks: row `64h + d`, column `64h + o` holds `W[o, d]`. -/
theorem wblk_diag (W : FVec Ideal S64x64 .f32) (k c : Fin 128) (d o : Fin 64) (h : Fin 2)
    (hk : k.val = 64 * h.val + d.val) (hc : c.val = 64 * h.val + o.val) : wblk W (ix2 k c) = W (ix2 o d) := by
  unfold wblk
  match h, hk, hc with
  | ⟨0, _⟩, hk, hc =>
    have hk' : k.val = 64 * 0 + d.val := hk
    have hc' : c.val = 64 * 0 + o.val := hc
    exact (Cert.BlockDiag.blockdiag_low _ _ k c d o (by omega) (by omega)).trans (transpose_ix2_apply W _ d o)
  | ⟨1, _⟩, hk, hc =>
    have hk' : k.val = 64 * 1 + d.val := hk
    have hc' : c.val = 64 * 1 + o.val := hc
    exact (Cert.BlockDiag.blockdiag_high _ _ k c d o (by omega) (by omega)).trans (transpose_ix2_apply W _ d o)

/-- The packed weight off its diagonal blocks is zero. -/
theorem wblk_off (W : FVec Ideal S64x64 .f32) (k c : Fin 128) (o : Fin 64) (h : Fin 2)
    (hc : c.val = 64 * h.val + o.val) (hk : k.val / 64 ≠ h.val) : wblk W (ix2 k c) = 0 := by
  unfold wblk
  have hh : h.val < 2 := h.isLt
  have ho : o.val < 64 := o.isLt
  have hkk : k.val < 128 := k.isLt
  exact (Cert.BlockDiag.blockdiag_off _ _ k c (by omega)).trans (zeros128_apply _)

/-- The kernel's output, one edge per row: each edge's message as the reference writes it. -/
theorem unpacked_eq_edgeMsg (xs xd : FVec Ideal S1600000x64 .bf16) (nrm : FVec Ideal S1600000x1 .f32)
    (W1 W2 : FVec Ideal S64x64 .f32) (B1 B2 : FVec Ideal S64 .f32) (e : Fin 1600000) (o : Fin 64) :
    shapeCast S1600000x64
        (fun i : S800000x128.Idx => Cert.RowMsg.rowMsg (R := 800000)
          (shapeCast S800000x128 xs shapeCasts_S1600000x64_S800000x128)
          (shapeCast S800000x128 xd shapeCasts_S1600000x64_S800000x128)
          (shapeCast S800000x2 nrm shapeCasts_S1600000x1_S800000x2) (wblk W1) (wblk W2) (bcat B1) (bcat B2) (i 0) (i 1))
        shapeCasts_S800000x128_S1600000x64 (ix2 e o)
      = Cert.RowMsg.edgeMsg xs xd nrm W1 W2 B1 B2 e o := by
  have he : e.val < 1600000 := e.isLt
  have ho : o.val < 64 := o.isLt
  refine (unpack_apply _ e o (⟨e.val / 2, by omega⟩ : Fin 800000) (⟨64 * (e.val % 2) + o.val, by omega⟩ : Fin 128)
    (by show e.val / 2 * 128 + (64 * (e.val % 2) + o.val) = e.val * 64 + o.val; omega)).trans ?_
  show Cert.RowMsg.rowMsg (R := 800000) _ _ _ _ _ _ _ (⟨e.val / 2, _⟩ : Fin 800000) (⟨64 * (e.val % 2) + o.val, _⟩ : Fin 128) = _
  refine Cert.RowMsg.rowMsg_eq_edgeMsg _ _ _ _ _ _ _ xs xd nrm W1 W2 B1 B2 _ _ e o (⟨e.val % 2, by omega⟩ : Fin 2) rfl ?_ ?_ ?_ ?_ ?_ ?_ ?_ ?_ ?_
  · intro d k hk
    have hk' : k.val = 64 * (e.val % 2) + d.val := hk
    exact pack_apply xs _ k e d (by show e.val * 64 + d.val = e.val / 2 * 128 + k.val; omega)
  · intro d k hk
    have hk' : k.val = 64 * (e.val % 2) + d.val := hk
    exact pack_apply xd _ k e d (by show e.val * 64 + d.val = e.val / 2 * 128 + k.val; omega)
  · exact pack_norm_apply nrm _ _ e (by show e.val = e.val / 2 * 2 + e.val % 2; omega)
  · intro d k hk
    exact wblk_diag W1 k _ d o _ hk rfl
  · intro k hk
    exact wblk_off W1 k _ o _ rfl hk
  · intro d k hk
    exact wblk_diag W2 k _ d o _ hk rfl
  · intro k hk
    exact wblk_off W2 k _ o _ rfl hk
  · exact bcat_apply B1 _ o (⟨e.val % 2, by omega⟩ : Fin 2) rfl
  · exact bcat_apply B2 _ o (⟨e.val % 2, by omega⟩ : Fin 2) rfl

end Cert.KernelIdeal.Hand
-- ==== Proof.RefMsg.lean ====
import proofs.«111251_j75857712382545_2_alg».proof.Proof.Gen.ReferenceIdeal.Read
import proofs.«111251_j75857712382545_2_alg».proof.Proof.RowMsg
import Idealize.ShloMosaic.Lib.ValueIdx
import Idealize.ShloMosaic.PureOps.Ideal

/-! # The reference's messages

Before it sums the messages onto the destination nodes, the reference holds for edge `e` and output feature `o`
the norm of the edge times (the source row contracted with row `o` of the first weight, plus the first bias, plus the
product of the source and destination rows contracted with row `o` of the second weight, plus the second bias):
`edgeMsg` of the rows it gathered. -/

noncomputable section
namespace Cert.ReferenceIdeal.Hand
open Idealize.ShloMosaic Idealize.ShloMosaic.ValueIdx Cert.ReferenceIdeal Cert.ReferenceIdeal.Gen Cert.ReferenceIdeal.Read

theorem msg_apply (x0 x1 : (⟨S50000x64, .f32⟩ : BufTy).Contents (Elt Ideal)) (x2 : (⟨S1600000x1, .f32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 x8 : (⟨S1600000, .i32⟩ : BufTy).Contents (Elt Ideal)) (e : Fin 1600000) (o : Fin 64) :
    val_main_v26 (F := Ideal) x0 x1 x2 x3 x4 x5 x6 x7 x8 (ix2 e o)
      = Cert.RowMsg.edgeMsg (val_main_v7 (F := Ideal) x0 x1 x7) (val_main_v14 (F := Ideal) x0 x1 x8) x2 x3 x5 x4 x6 e o := by
  have i25 : idx_main_v25 (ix2 e o) = ix2 e (0 : Fin 1) := funext fun a => Fin.ext (by match a with | ⟨0, _⟩ => rfl | ⟨1, _⟩ => rfl)
  have il15 : ∀ k : Fin 64, lidx_main_v15 (ix2 e o) k = ix2 e k := fun k => funext fun a => Fin.ext (by match a with | ⟨0, _⟩ => rfl | ⟨1, _⟩ => rfl)
  have ir15 : ∀ k : Fin 64, ridx_main_v15 (ix2 e o) k = ix2 o k := fun k => funext fun a => Fin.ext (by match a with | ⟨0, _⟩ => rfl | ⟨1, _⟩ => rfl)
  have il20 : ∀ k : Fin 64, lidx_main_v20 (ix2 e o) k = ix2 e k := fun k => funext fun a => Fin.ext (by match a with | ⟨0, _⟩ => rfl | ⟨1, _⟩ => rfl)
  have ir20 : ∀ k : Fin 64, ridx_main_v20 (ix2 e o) k = ix2 o k := fun k => funext fun a => Fin.ext (by match a with | ⟨0, _⟩ => rfl | ⟨1, _⟩ => rfl)
  have i16 : idx_main_v16 (idx_main_v17 (ix2 e o)) = ix1 o := funext fun a => Fin.ext (by match a with | ⟨0, _⟩ => rfl)
  have i22 : idx_main_v22 (idx_main_v23 (ix2 e o)) = ix1 o := funext fun a => Fin.ext (by match a with | ⟨0, _⟩ => rfl)
  rw [val_main_v26_apply, val_main_v25_apply, val_main_v24_apply, val_main_v21_apply, val_main_v18_apply,
    val_main_v15_apply, val_main_v17_apply, val_main_v16_apply, val_main_v20_apply, val_main_v23_apply, val_main_v22_apply]
  simp only [val_main_v19_apply, i25, il15, ir15, il20, ir20, i16, i22]
  rfl

end Cert.ReferenceIdeal.Hand
-- ==== Proof.lean ====
/-
  The certificate's five claims.

  Both programs compute, per edge `e` and output feature `o`, the message
  `norm[e] · (Σ_d xs[e,d]·W1[o,d] + b1[o] + Σ_d xs[e,d]·xd[e,d]·W2[o,d] + b2[o])`
  of the edge's gathered source and destination rows, sum the messages onto the destination nodes and apply the
  leaky rectifier. The kernel packs two edges into each 128-lane row and multiplies by block-diagonal 128×128
  weights; on the extended reals the zero blocks contribute nothing, a change of float format is the identity, and
  the two orders of the four summands agree by commutativity and associativity alone, so no finiteness of the
  inputs is used. The gather, the scatter-sum and the rectifier are the same operations in both programs and are
  never opened.

  The three frames are the generated frame runs (the reference's is its generated run with the result dropped);
  the idealization rewrote nothing, so `preserves` holds trivially; `algebraic` states both runs with one result.
-/
import proofs.«111251_j75857712382545_2_alg».proof.Defs
import proofs.«111251_j75857712382545_2_alg».proof.Proof.Gen.Kernel
import proofs.«111251_j75857712382545_2_alg».proof.Proof.Gen.Kernel.Skeleton
import proofs.«111251_j75857712382545_2_alg».proof.Proof.Gen.Kernel.Launch
import proofs.«111251_j75857712382545_2_alg».proof.Proof.Gen.Kernel.Points
import proofs.«111251_j75857712382545_2_alg».proof.Proof.Gen.Kernel.Frame
import proofs.«111251_j75857712382545_2_alg».proof.Proof.Gen.KernelIdeal
import proofs.«111251_j75857712382545_2_alg».proof.Proof.Gen.KernelIdeal.Skeleton
import proofs.«111251_j75857712382545_2_alg».proof.Proof.Gen.KernelIdeal.Launch
import proofs.«111251_j75857712382545_2_alg».proof.Proof.Gen.KernelIdeal.Points
import proofs.«111251_j75857712382545_2_alg».proof.Proof.Gen.KernelIdeal.Frame
import proofs.«111251_j75857712382545_2_alg».proof.Proof.Gen.ReferenceIdeal
import proofs.«111251_j75857712382545_2_alg».proof.Proof.Gen.Pre_finite_inputs
import proofs.«111251_j75857712382545_2_alg».proof.Proof.Gen.ReferenceIdeal.Run
import proofs.«111251_j75857712382545_2_alg».proof.Proof.Gen.ReferenceIdeal.Read
import proofs.«111251_j75857712382545_2_alg».proof.Proof.KernelRun
import proofs.«111251_j75857712382545_2_alg».proof.Proof.Packing
import proofs.«111251_j75857712382545_2_alg».proof.Proof.RefMsg
import Idealize.ShloMosaic.Adequacy
import Idealize.ShloMosaic.Init

noncomputable section

namespace Cert.Proof

open Idealize.ShloMosaic Idealize.ShloMosaic.TcCoe Idealize.ShloMosaic.ValueIdx Idealize.SL.Sem

abbrev RC (s : Shape) (e : EltTy) : Type := (⟨s, e⟩ : BufTy).Contents (Elt Ideal)

/-- The two programs gather the same source rows: the kernel's change of float format on the node table is the identity. -/
theorem gathered_src (x0 x1 : RC Cert.ReferenceIdeal.S50000x64 .f32) (x7 : RC Cert.ReferenceIdeal.S1600000 .i32) :
    Cert.KernelIdeal.Hand.gathered x0 x1 x7 = Cert.ReferenceIdeal.Read.val_main_v7 (F := Ideal) x0 x1 x7 := rfl

/-- And the same destination rows. -/
theorem gathered_dst (x0 x1 : RC Cert.ReferenceIdeal.S50000x64 .f32) (x8 : RC Cert.ReferenceIdeal.S1600000 .i32) :
    Cert.KernelIdeal.Hand.gathered x0 x1 x8 = Cert.ReferenceIdeal.Read.val_main_v14 (F := Ideal) x0 x1 x8 := rfl

/-- The reference's result is the kernel program's tail applied to the reference's messages. -/
theorem ref_tail (x0 x1 : RC Cert.ReferenceIdeal.S50000x64 .f32) (x2 : RC Cert.ReferenceIdeal.S1600000x1 .f32)
    (x3 : RC Cert.ReferenceIdeal.S64x64 .f32) (x4 : RC Cert.ReferenceIdeal.S64 .f32)
    (x5 : RC Cert.ReferenceIdeal.S64x64 .f32) (x6 : RC Cert.ReferenceIdeal.S64 .f32)
    (x7 x8 : RC Cert.ReferenceIdeal.S1600000 .i32) :
    Cert.ReferenceIdeal.Read.val_main_v34 (F := Ideal) x0 x1 x2 x3 x4 x5 x6 x7 x8
      = Cert.KernelIdeal.Hand.tail (F := Ideal) (Cert.ReferenceIdeal.Read.val_main_v26 (F := Ideal) x0 x1 x2 x3 x4 x5 x6 x7 x8) x8 := rfl

/-- The reference's messages are the kernel's output laid out one edge per row: edge by edge both are `edgeMsg`. -/
theorem msgs_eq (m : (ℓ : Loc Cert.KernelIdeal.nD Cert.KernelIdeal.τ Cert.KernelIdeal.sig) → Buf (Elt Ideal) ℓ) (c : Dev Cert.KernelIdeal.nD) :
    Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = shapeCast Cert.KernelIdeal.S1600000x64 (Cert.KernelIdeal.Hand.packed m c) Cert.KernelIdeal.Gen.shapeCasts_S800000x128_S1600000x64 := by
  funext j
  obtain ⟨e, o, rfl⟩ : ∃ (e : Fin 1600000) (o : Fin 64), j = ix2 e o := ⟨j 0, j 1, eq_ix2 j⟩
  rw [Cert.ReferenceIdeal.Hand.msg_apply, ← gathered_src, ← gathered_dst]
  unfold Cert.KernelIdeal.Hand.packed
  rw [Cert.KernelIdeal.Hand.V_xs, Cert.KernelIdeal.Hand.V_xd, Cert.KernelIdeal.Hand.V_norm, Cert.KernelIdeal.Hand.V_w1,
    Cert.KernelIdeal.Hand.V_w2, Cert.KernelIdeal.Hand.V_b1, Cert.KernelIdeal.Hand.V_b2]
  exact (Cert.KernelIdeal.Hand.unpacked_eq_edgeMsg _ _ _ _ _ _ _ e o).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with `tail` of the same messages at the same destination indices. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v34_eq, h0, h1, h2, h3, h4, h5, h6, h7, h8, ref_tail, msgs_eq m c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
